-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v98)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v98) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S64 .f32) (main_arg10 : FVec F S64x64 .f32) (main_arg11 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg6 : FVec F S64x64 .f32) (main_arg7 : FVec F S64 .f32) (main_arg8 : FVec F S64x64 .f32) (main_arg9 : FVec F S64 .f32) (main_arg10 : FVec F S64x64 .f32) (main_arg11 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_v33

def fn {F : FTy → Type} [FloatOps F] (main_arg0 : FVec F S1 .f32) (main_arg1 : FVec F S100000x64 .f32) (main_arg2 : IVec S2x1600000 32) (main_arg3 : IVec S2x1600000 32) (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S64x64 .f32) (main_arg11 : FVec F S64 .f32) : IVec S_ 1 :=
  let main_v0 : FVec F S1 .f32 := Host.absf main_arg0
  let main_cst : FVec F S_ .f32 := constant S_ .f32 0x7F800000#32
  let main_v1 : FVec F S1 .f32 := broadcastInDim S1 ![] bcast_S_S1 main_cst
  let main_v2 : IVec S1 1 := cmpf .olt main_v0 main_v1
  let main_c : IVec S_ 1 := constantI S_ 1 1#1
  let main_v3 : IVec S_ 1 := (fun x v => Host.reduce IntOp.andi x v reducesTo_S1_S_d0 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_v13 main_v16
-- ==== Kernel.lean ====
abbrev S1 : Shape := ⟨1, ![1]⟩
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x128 : Shape := ⟨2, ![64, 128]⟩
abbrev S100000x128 : Shape := ⟨2, ![100000, 128]⟩
abbrev S10000x64 : Shape := ⟨2, ![10000, 64]⟩
abbrev S10000x128 : Shape := ⟨2, ![10000, 128]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S128x64 : Shape := ⟨2, ![128, 64]⟩

abbrev nBuf : Space → Nat
  | .hbm => 129
  | .vmem => 11
  | .smem => 0
  | _ => 0

abbrev hbmTy0_0 (i : Nat) : BufTy := match i % 128 with
  | 0 => ⟨S1, .f32⟩
  | 1 => ⟨S100000x64, .f32⟩
  | 2 => ⟨S2x1600000, .i32⟩
  | 3 => ⟨S2x1600000, .i32⟩
  | 4 => ⟨S64x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x64, .f32⟩
  | 11 => ⟨S64, .f32⟩
  | 12 => ⟨S64x64, .f32⟩
  | 13 => ⟨S64x64, .f32⟩
  | 14 => ⟨S64x128, .f32⟩
  | 15 => ⟨S100000x128, .f32⟩
  | 16 => ⟨S100000x64, .f32⟩
  | 17 => ⟨S100000x64, .f32⟩
  | 18 => ⟨S1x1600000, .i32⟩
  | 19 => ⟨S1600000, .i32⟩
  | 20 => ⟨S1x1600000, .i32⟩
  | 21 => ⟨S1600000, .i32⟩
  | 22 => ⟨S100000, .i32⟩
  | 23 => ⟨S1700000, .i32⟩
  | 24 => ⟨S1700000, .i32⟩
  | 25 => ⟨S_, .f32⟩
  | 26 => ⟨S1700000, .f32⟩
  | 27 => ⟨S_, .f32⟩
  | 28 => ⟨S100000, .f32⟩
  | 29 => ⟨S1700000x1, .i32⟩
  | 30 => ⟨S100000, .f32⟩
  | 31 => ⟨S100000, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S1700000, .f32⟩
  | 51 => ⟨S_, .i32⟩
  | 52 => ⟨S1700000, .i32⟩
  | 53 => ⟨S1700000, .i1⟩
  | 54 => ⟨S_, .i32⟩
  | 55 => ⟨S1700000, .i32⟩
  | 56 => ⟨S1700000, .i32⟩
  | 57 => ⟨S1700000, .i32⟩
  | 58 => ⟨S1700000x1, .i32⟩
  | 59 => ⟨S1700000x64, .f32⟩
  | 60 => ⟨S1700000x1, .f32⟩
  | 61 => ⟨S1700000x64, .f32⟩
  | 62 => ⟨S1700000x64, .f32⟩
  | 63 => ⟨S_, .f32⟩
  | 64 => ⟨S100000x64, .f32⟩
  | 65 => ⟨S1700000x1, .i32⟩
  | 66 => ⟨S100000x64, .f32⟩
  | 67 => ⟨S1x64, .f32⟩
  | 68 => ⟨S100000x64, .f32⟩
  | 69 => ⟨S100000x64, .f32⟩
  | 70 => ⟨S1x1600000, .i32⟩
  | 71 => ⟨S1600000, .i32⟩
  | 72 => ⟨S1x1600000, .i32⟩
  | 73 => ⟨S1600000, .i32⟩
  | 74 => ⟨S100000, .i32⟩
  | 75 => ⟨S1700000, .i32⟩
  | 76 => ⟨S1700000, .i32⟩
  | 77 => ⟨S_, .f32⟩
  | 78 => ⟨S1700000, .f32⟩
  | 79 => ⟨S_, .f32⟩
  | 80 => ⟨S100000, .f32⟩
  | 81 => ⟨S1700000x1, .i32⟩
  | 82 => ⟨S100000, .f32⟩
  | 83 => ⟨S100000, .f32⟩
  | 84 => ⟨S_, .i32⟩
  | 85 => ⟨S1700000, .i32⟩
  | 86 => ⟨S1700000, .i1⟩
  | 87 => ⟨S_, .i32⟩
  | 88 => ⟨S1700000, .i32⟩
  | 89 => ⟨S1700000, .i32⟩
  | 90 => ⟨S1700000, .i32⟩
  | 91 => ⟨S1700000x1, .i32⟩
  | 92 => ⟨S1700000, .f32⟩
  | 93 => ⟨S_, .i32⟩
  | 94 => ⟨S1700000, .i32⟩
  | 95 => ⟨S1700000, .i1⟩
  | 96 => ⟨S_, .i32⟩
  | 97 => ⟨S1700000, .i32⟩
  | 98 => ⟨S1700000, .i32⟩
  | 99 => ⟨S1700000, .i32⟩
  | 100 => ⟨S1700000x1, .i32⟩
  | 101 => ⟨S1700000, .f32⟩
  | 102 => ⟨S1700000, .f32⟩
  | 103 => ⟨S_, .i32⟩
  | 104 => ⟨S1700000, .i32⟩
  | 105 => ⟨S1700000, .i1⟩
  | 106 => ⟨S_, .i32⟩
  | 107 => ⟨S1700000, .i32⟩
  | 108 => ⟨S1700000, .i32⟩
  | 109 => ⟨S1700000, .i32⟩
  | 110 => ⟨S1700000x1, .i32⟩
  | 111 => ⟨S1700000x64, .f32⟩
  | 112 => ⟨S1700000x1, .f32⟩
  | 113 => ⟨S1700000x64, .f32⟩
  | 114 => ⟨S1700000x64, .f32⟩
  | 115 => ⟨S_, .f32⟩
  | 116 => ⟨S100000x64, .f32⟩
  | 117 => ⟨S1700000x1, .i32⟩
  | 118 => ⟨S100000x64, .f32⟩
  | 119 => ⟨S1x64, .f32⟩
  | 120 => ⟨S100000x64, .f32⟩
  | 121 => ⟨S100000x64, .f32⟩
  | 122 => ⟨S100000x128, .f32⟩
  | 123 => ⟨S64x64, .f32⟩
  | 124 => ⟨S64x64, .f32⟩
  | 125 => ⟨S128x64, .f32⟩
  | 126 => ⟨S64, .f32⟩
  | 127 => ⟨S1x64, .f32⟩
  | _ => ⟨S1, .f32⟩

abbrev hbmTy0_1 (i : Nat) : BufTy := match i % 128 with
  | 0 => ⟨S100000x64, .f32⟩
  | _ => ⟨S1, .f32⟩

abbrev hbmTy (i : Nat) : BufTy := match i / 128 with
  | 0 => hbmTy0_0 i
  | 1 => hbmTy0_1 i
  | _ => ⟨S1, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S64x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S128x64, .f32⟩
  | .local _ .vmem, ⟨8, _⟩ => ⟨S1x64, .f32⟩
  | .local _ .vmem, ⟨9, _⟩ => ⟨S10000x64, .f32⟩
  | .local _ .vmem, ⟨10, _⟩ => ⟨S10000x64, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_cst_0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_1 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_2 : Ref sig .tc := ⟨.hbm, 41, rfl⟩
abbrev main_v25 : Ref sig .tc := ⟨.hbm, 42, rfl⟩
abbrev main_v26 : Ref sig .tc := ⟨.hbm, 43, rfl⟩
abbrev main_c_3 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_4 : Ref sig .tc := ⟨.hbm, 51, rfl⟩
abbrev main_v33 : Ref sig .tc := ⟨.hbm, 52, rfl⟩
abbrev main_v34 : Ref sig .tc := ⟨.hbm, 53, rfl⟩
abbrev main_c_5 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_6 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_7 : Ref sig .tc := ⟨.hbm, 77, rfl⟩
abbrev main_v56 : Ref sig .tc := ⟨.hbm, 78, rfl⟩
abbrev main_cst_8 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_c_9 : Ref sig .tc := ⟨.hbm, 84, rfl⟩
abbrev main_v61 : Ref sig .tc := ⟨.hbm, 85, rfl⟩
abbrev main_v62 : Ref sig .tc := ⟨.hbm, 86, rfl⟩
abbrev main_c_10 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_c_11 : Ref sig .tc := ⟨.hbm, 93, rfl⟩
abbrev main_v68 : Ref sig .tc := ⟨.hbm, 94, rfl⟩
abbrev main_v69 : Ref sig .tc := ⟨.hbm, 95, rfl⟩
abbrev main_c_12 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_c_13 : Ref sig .tc := ⟨.hbm, 103, rfl⟩
abbrev main_v76 : Ref sig .tc := ⟨.hbm, 104, rfl⟩
abbrev main_v77 : Ref sig .tc := ⟨.hbm, 105, rfl⟩
abbrev main_c_14 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_cst_15 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  transposes_S64x64_S64x64_1_0 : S64x64.Transposes [1, 0] S64x64
  concatenates_S64x64_S64x64_S64x128_d1 : Shape.Concatenates [S64x64, S64x64] S64x128 1
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S10000x128_S10000x128_0_0 : ∀ a, (![0, 0] : Fin 2 → Nat) a + S10000x128.size a ≤ S10000x128.size a
  h_S10000x128 : 0 < S10000x128.numel
  slices_S100000x128_S100000x64_0_0 : S100000x128.Slices ![0, 0] S100000x64
  slices_S100000x128_S100000x64_0_64 : S100000x128.Slices ![0, 64] S100000x64
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  concatenates_S100000x64_S100000x64_S100000x128_d1 : Shape.Concatenates [S100000x64, S100000x64] S100000x128 1
  concatenates_S64x64_S64x64_S128x64_d0 : Shape.Concatenates [S64x64, S64x64] S128x64 0
  shapeCasts_S64_S1x64 : S64.ShapeCasts S1x64
  shapeCasts_S10000x128_S10000x128 : S10000x128.ShapeCasts S10000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  dot_S10000x64_S64x128_S10000x128_1_0_0_1_n_n_wf : DotDims.WF S10000x64 S64x128 S10000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x128_S128x64_S10000x64_1_0_0_1_n_n_wf : DotDims.WF S10000x128 S128x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)

variable [Facts₀]

def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

abbrev win0_0 : Pipeline.Window sig grid0 :=
  Pipeline.Window.ofSpec (Memref.whole main_arg1) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v92) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v95) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v97) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v98) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S1 : Shape := ⟨1, ![1]⟩
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩

abbrev nBuf : Space → Nat
  | .hbm => 131
  | .vmem => 0
  | .smem => 0
  | _ => 0

abbrev hbmTy0_0 (i : Nat) : BufTy := match i % 128 with
  | 0 => ⟨S1, .f32⟩
  | 1 => ⟨S100000x64, .f32⟩
  | 2 => ⟨S2x1600000, .i32⟩
  | 3 => ⟨S2x1600000, .i32⟩
  | 4 => ⟨S64x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x64, .f32⟩
  | 11 => ⟨S64, .f32⟩
  | 12 => ⟨S1x1600000, .i32⟩
  | 13 => ⟨S1600000, .i32⟩
  | 14 => ⟨S1x1600000, .i32⟩
  | 15 => ⟨S1600000, .i32⟩
  | 16 => ⟨S100000, .i32⟩
  | 17 => ⟨S1700000, .i32⟩
  | 18 => ⟨S1700000, .i32⟩
  | 19 => ⟨S_, .f32⟩
  | 20 => ⟨S1700000, .f32⟩
  | 21 => ⟨S_, .f32⟩
  | 22 => ⟨S100000, .f32⟩
  | 23 => ⟨S1700000x1, .i32⟩
  | 24 => ⟨S100000, .f32⟩
  | 25 => ⟨S100000, .f32⟩
  | 26 => ⟨S_, .i32⟩
  | 27 => ⟨S1700000, .i32⟩
  | 28 => ⟨S1700000, .i1⟩
  | 29 => ⟨S_, .i32⟩
  | 30 => ⟨S1700000, .i32⟩
  | 31 => ⟨S1700000, .i32⟩
  | 32 => ⟨S1700000, .i32⟩
  | 33 => ⟨S1700000x1, .i32⟩
  | 34 => ⟨S1700000, .f32⟩
  | 35 => ⟨S_, .i32⟩
  | 36 => ⟨S1700000, .i32⟩
  | 37 => ⟨S1700000, .i1⟩
  | 38 => ⟨S_, .i32⟩
  | 39 => ⟨S1700000, .i32⟩
  | 40 => ⟨S1700000, .i32⟩
  | 41 => ⟨S1700000, .i32⟩
  | 42 => ⟨S1700000x1, .i32⟩
  | 43 => ⟨S1700000, .f32⟩
  | 44 => ⟨S1700000, .f32⟩
  | 45 => ⟨S64x64, .f32⟩
  | 46 => ⟨S100000x64, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000x64, .f32⟩
  | 56 => ⟨S1700000x1, .f32⟩
  | 57 => ⟨S1700000x64, .f32⟩
  | 58 => ⟨S1700000x64, .f32⟩
  | 59 => ⟨S_, .f32⟩
  | 60 => ⟨S100000x64, .f32⟩
  | 61 => ⟨S1700000x1, .i32⟩
  | 62 => ⟨S100000x64, .f32⟩
  | 63 => ⟨S1x64, .f32⟩
  | 64 => ⟨S100000x64, .f32⟩
  | 65 => ⟨S100000x64, .f32⟩
  | 66 => ⟨S1x1600000, .i32⟩
  | 67 => ⟨S1600000, .i32⟩
  | 68 => ⟨S1x1600000, .i32⟩
  | 69 => ⟨S1600000, .i32⟩
  | 70 => ⟨S100000, .i32⟩
  | 71 => ⟨S1700000, .i32⟩
  | 72 => ⟨S1700000, .i32⟩
  | 73 => ⟨S_, .f32⟩
  | 74 => ⟨S1700000, .f32⟩
  | 75 => ⟨S_, .f32⟩
  | 76 => ⟨S100000, .f32⟩
  | 77 => ⟨S1700000x1, .i32⟩
  | 78 => ⟨S100000, .f32⟩
  | 79 => ⟨S100000, .f32⟩
  | 80 => ⟨S_, .i32⟩
  | 81 => ⟨S1700000, .i32⟩
  | 82 => ⟨S1700000, .i1⟩
  | 83 => ⟨S_, .i32⟩
  | 84 => ⟨S1700000, .i32⟩
  | 85 => ⟨S1700000, .i32⟩
  | 86 => ⟨S1700000, .i32⟩
  | 87 => ⟨S1700000x1, .i32⟩
  | 88 => ⟨S1700000, .f32⟩
  | 89 => ⟨S_, .i32⟩
  | 90 => ⟨S1700000, .i32⟩
  | 91 => ⟨S1700000, .i1⟩
  | 92 => ⟨S_, .i32⟩
  | 93 => ⟨S1700000, .i32⟩
  | 94 => ⟨S1700000, .i32⟩
  | 95 => ⟨S1700000, .i32⟩
  | 96 => ⟨S1700000x1, .i32⟩
  | 97 => ⟨S1700000, .f32⟩
  | 98 => ⟨S1700000, .f32⟩
  | 99 => ⟨S64x64, .f32⟩
  | 100 => ⟨S100000x64, .f32⟩
  | 101 => ⟨S_, .i32⟩
  | 102 => ⟨S1700000, .i32⟩
  | 103 => ⟨S1700000, .i1⟩
  | 104 => ⟨S_, .i32⟩
  | 105 => ⟨S1700000, .i32⟩
  | 106 => ⟨S1700000, .i32⟩
  | 107 => ⟨S1700000, .i32⟩
  | 108 => ⟨S1700000x1, .i32⟩
  | 109 => ⟨S1700000x64, .f32⟩
  | 110 => ⟨S1700000x1, .f32⟩
  | 111 => ⟨S1700000x64, .f32⟩
  | 112 => ⟨S1700000x64, .f32⟩
  | 113 => ⟨S_, .f32⟩
  | 114 => ⟨S100000x64, .f32⟩
  | 115 => ⟨S1700000x1, .i32⟩
  | 116 => ⟨S100000x64, .f32⟩
  | 117 => ⟨S1x64, .f32⟩
  | 118 => ⟨S100000x64, .f32⟩
  | 119 => ⟨S100000x64, .f32⟩
  | 120 => ⟨S64x64, .f32⟩
  | 121 => ⟨S100000x64, .f32⟩
  | 122 => ⟨S1x64, .f32⟩
  | 123 => ⟨S100000x64, .f32⟩
  | 124 => ⟨S100000x64, .f32⟩
  | 125 => ⟨S64x64, .f32⟩
  | 126 => ⟨S100000x64, .f32⟩
  | 127 => ⟨S1x64, .f32⟩
  | _ => ⟨S1, .f32⟩

abbrev hbmTy0_1 (i : Nat) : BufTy := match i % 128 with
  | 0 => ⟨S100000x64, .f32⟩
  | 1 => ⟨S100000x64, .f32⟩
  | 2 => ⟨S100000x64, .f32⟩
  | _ => ⟨S1, .f32⟩

abbrev hbmTy (i : Nat) : BufTy := match i / 128 with
  | 0 => hbmTy0_0 i
  | 1 => hbmTy0_1 i
  | _ => ⟨S1, .f32⟩

abbrev bufTy : (tb : Table) → Fin (tcTables nBuf tb) → BufTy
  | .hbm, ⟨i, _⟩ => hbmTy i
  | _, _ => ⟨S1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_2 : Ref sig .tc := ⟨.hbm, 35, rfl⟩
abbrev main_v19 : Ref sig .tc := ⟨.hbm, 36, rfl⟩
abbrev main_v20 : Ref sig .tc := ⟨.hbm, 37, rfl⟩
abbrev main_c_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_4 : Ref sig .tc := ⟨.hbm, 47, rfl⟩
abbrev main_v29 : Ref sig .tc := ⟨.hbm, 48, rfl⟩
abbrev main_v30 : Ref sig .tc := ⟨.hbm, 49, rfl⟩
abbrev main_c_5 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_6 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_7 : Ref sig .tc := ⟨.hbm, 73, rfl⟩
abbrev main_v52 : Ref sig .tc := ⟨.hbm, 74, rfl⟩
abbrev main_cst_8 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_9 : Ref sig .tc := ⟨.hbm, 80, rfl⟩
abbrev main_v57 : Ref sig .tc := ⟨.hbm, 81, rfl⟩
abbrev main_v58 : Ref sig .tc := ⟨.hbm, 82, rfl⟩
abbrev main_c_10 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_11 : Ref sig .tc := ⟨.hbm, 89, rfl⟩
abbrev main_v64 : Ref sig .tc := ⟨.hbm, 90, rfl⟩
abbrev main_v65 : Ref sig .tc := ⟨.hbm, 91, rfl⟩
abbrev main_c_12 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_c_13 : Ref sig .tc := ⟨.hbm, 101, rfl⟩
abbrev main_v74 : Ref sig .tc := ⟨.hbm, 102, rfl⟩
abbrev main_v75 : Ref sig .tc := ⟨.hbm, 103, rfl⟩
abbrev main_c_14 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_cst_15 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  transposes_S64x64_S64x64_1_0 : S64x64.Transposes [1, 0] S64x64
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x64_S100000x64_1_0_0_1_n_n_wf : DotDims.WF S100000x64 S64x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelRun.lean ====
/-
  The idealized kernel's run, with its result array named.

  @main is four segments: three host operations, the first matrix-product region, 112 host operations, the second
  matrix-product region.  The buffer contents at the segment boundaries are a fold from the launch memory: after the
  first stretch, with region 0's output array at what its write-backs leave, after the second stretch, and with
  region 1's output array at what its write-backs leave (`W4`).  Every weakly fair execution terminates without a
  fault in a state whose unscoped buffers hold `W4`; read at the result buffer this names the result, and read at
  the argument buffers it walks back to the launch memory.
-/
import proofs.«113151_j32873679683756_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding plain
-- definitions in a metavariable's type
set_option backward.isDefEq.respectTransparency.types false in
/-- Every weakly fair execution of @main terminates, nothing faulting, with the result buffer at the last boundary's
    contents and the argument arrays as launched. -/
theorem run : θ_run defs (onTc (τ := τ) (main (F := F))) ⟨m, fun _ => 0, ρ⟩ (fun r => ∀ c : Dev nD,
      r.2.mem ((c.tc : Thread nD τ).loc main_v98) = W4 m ρ c (Proc.devRef .tc main_v98)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v98 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c)⟩)

end Cert.KernelIdeal.Named

end
-- ==== Proof.LibMatmul.lean ====
/-
  A matrix product read at an entry.

  At the exact instance a matrix-unit product into a zero accumulator is, entry by entry, the textbook contraction:
  for an M x K left operand and a K x N right operand, entry (p, q) is the sum over k of lhs(p, k) * rhs(k, q)
  (`matmul_zero_plain_apply`); when the right operand is given as N x K and contracted along its second axis
  (a product with the transpose), entry (p, q) is the sum over k of lhs(p, k) * rhs(q, k) (`matmul_zero_nt_apply`).
  The dimension records are the ones with exactly those contracting and free axes and no batch axis.
-/
import Idealize.ShloMosaic.PureOps.Ideal.Laws
import Idealize.ShloMosaic.Lib.ValueIdx

noncomputable section

namespace Cert.MatmulAt

open Idealize.ShloMosaic Idealize.ShloMosaic.ValueIdx

/-- Rows times columns: contract the left operand's second axis with the right operand's first. -/
abbrev plainDims {M K N : ℕ} (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- Rows times rows: contract the second axis of both operands. -/
abbrev ntDims {M K N : ℕ} (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

theorem matmul_zero_plain_apply {M K N : ℕ} {φ₁ φ₂ : FTy}
    (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (p : Fin M) (q : Fin N) :
    matmul (plainDims wf) prec lhs rhs (constant (F := Ideal) ⟨2, ![M, N]⟩ .f32 0x00000000#32) (ix2 p q)
      = ∑ k : Fin K, lhs (ix2 p k) * rhs (ix2 k q) := by
  simp only [matmul]
  rw [Ideal.matmul_constant_zero_apply, ← Equiv.sum_comp (contrEquiv1 (plainDims wf) K rfl rfl).symm]
  refine Finset.sum_congr rfl fun k _ => ?_
  have hk := contrEquiv1_symm_val (plainDims wf) K rfl rfl k
  have el : (plainDims wf).lhsIdx (ix2 p q) ((contrEquiv1 (plainDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((plainDims wf).lhsIdx_val_of_single rfl _ _).trans hk)
  have er : (plainDims wf).rhsIdx (ix2 p q) ((contrEquiv1 (plainDims wf) K rfl rfl).symm k) = ix2 k q :=
    funext fun a => Fin.ext (by
      match a with
      | ⟨0, _⟩ => exact ((plainDims wf).rhsIdx_val_of_single rfl _ _).trans hk
      | ⟨1, _⟩ =>
        unfold DotDims.rhsIdx
        split
        · rename_i hb; exact absurd hb List.not_mem_nil
        · split
          · rfl
          · rename_i hn; exact absurd (List.mem_singleton_self _) hn)
  rw [el, er]

theorem matmul_zero_nt_apply {M K N : ℕ} {φ₁ φ₂ : FTy}
    (wf : DotDims.WF ⟨2, ![M, K]⟩ ⟨2, ![N, K]⟩ ⟨2, ![M, N]⟩ [1] [1] [0] [0] [] [])
    (prec : Option ContractPrecision)
    (lhs : FVec Ideal ⟨2, ![M, K]⟩ φ₁) (rhs : FVec Ideal ⟨2, ![N, K]⟩ φ₂) (p : Fin M) (q : Fin N) :
    matmul (ntDims wf) prec lhs rhs (constant (F := Ideal) ⟨2, ![M, N]⟩ .f32 0x00000000#32) (ix2 p q)
      = ∑ k : Fin K, lhs (ix2 p k) * rhs (ix2 q k) := by
  simp only [matmul]
  rw [Ideal.matmul_constant_zero_apply, ← Equiv.sum_comp (contrEquiv1 (ntDims wf) K rfl rfl).symm]
  refine Finset.sum_congr rfl fun k _ => ?_
  have hk := contrEquiv1_symm_val (ntDims wf) K rfl rfl k
  have el : (ntDims wf).lhsIdx (ix2 p q) ((contrEquiv1 (ntDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((ntDims wf).lhsIdx_val_of_single rfl _ _).trans hk)
  have er : (ntDims wf).rhsIdx (ix2 p q) ((contrEquiv1 (ntDims wf) K rfl rfl).symm k) = ix2 q k :=
    funext fun a => Fin.ext (by
      match a with
      | ⟨0, _⟩ =>
        unfold DotDims.rhsIdx
        split
        · rename_i hb; exact absurd hb List.not_mem_nil
        · split
          · rfl
          · rename_i hn; exact absurd (List.mem_singleton_self _) hn
      | ⟨1, _⟩ => exact ((ntDims wf).rhsIdx_val_of_single rfl _ _).trans hk)
  rw [el, er]

end Cert.MatmulAt

end
-- ==== Proof.LibRank2.lean ====
/-
  Rank-two arrays read at an entry (p, q), for any sizes.

  * the host's matrix product of an M x K by a K x N matrix, at the exact instance, is at entry (p, q) the sum over k
    of lhs(p, k) * rhs(k, q) (`dotGeneral_plain_apply`);
  * two matrices laid side by side (joined along the columns) read at (p, q): the left one at (p, q) when q is one of
    its columns, the right one at (p, q - N₁) otherwise (`concat_cols_left`, `concat_cols_right`); stacked one above the
    other (joined along the rows): the upper one at (p, q), the lower one at (p - M₁, q) (`concat_rows_left`,
    `concat_rows_right`);
  * a length-n vector made a 1 x n row and repeated down M rows reads at (p, q) as the vector's entry q, in the host's
    two-step form (`rowBias_apply`) and in the vector unit's cast-then-broadcast form (`rowBias_vec_apply`);
  * the entrywise sum of two length-n vectors reshaped to a 1 x n row reads at (0, q) as the sum of the two entries q
    (`biasSumRow_apply`).
-/
import Idealize.ShloMosaic.Lib.KernelVsHost
import Idealize.ShloMosaic.Lib.ValueLayout
import proofs.«113151_j32873679683756_1_alg».proof.Proof.LibMatmul

noncomputable section

namespace Cert.Rank2

open Idealize.ShloMosaic Idealize.ShloMosaic.ValueIdx

variable {α : Type}

/-- The host's rows-times-columns product at entry (p, q): the plain contraction over k. -/
theorem dotGeneral_plain_apply {M K N : ℕ} {φ₁ φ₂ : FTy}
    (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (p : Fin M) (q : Fin N) :
    Host.dotGeneral (Cert.MatmulAt.plainDims wf) prec lhs rhs (ix2 p q) = ∑ k : Fin K, lhs (ix2 p k) * rhs (ix2 k q) := by
  rw [← matmul_zero_eq_dotGeneral]
  exact Cert.MatmulAt.matmul_zero_plain_apply wf prec lhs rhs p q

/-- Side by side, a column of the left matrix. -/
theorem concat_cols_left {M N₁ N₂ N : ℕ} (x₁ : (⟨2, ![M, N₁]⟩ : Shape).Idx → α) (x₂ : (⟨2, ![M, N₂]⟩ : Shape).Idx → α)
    (h : Shape.Concatenates [(⟨2, ![M, N₁]⟩ : Shape), ⟨2, ![M, N₂]⟩] ⟨2, ![M, N]⟩ 1)
    (p : Fin M) (q : Fin N) (q₁ : Fin N₁) (hq : q₁.val = q.val) :
    concatenate ⟨2, ![M, N]⟩ 1 [⟨⟨2, ![M, N₁]⟩, x₁⟩, ⟨⟨2, ![M, N₂]⟩, x₂⟩] h (ix2 p q) = x₁ (ix2 p q₁) :=
  concatenate_pair_apply_left 1 x₁ x₂ h (ix2 p q) rfl (ix2 p q₁) fun b => match b with
    | ⟨0, _⟩ => rfl
    | ⟨1, _⟩ => hq

/-- Side by side, a column of the right matrix. -/
theorem concat_cols_right {M N₁ N₂ N : ℕ} (x₁ : (⟨2, ![M, N₁]⟩ : Shape).Idx → α) (x₂ : (⟨2, ![M, N₂]⟩ : Shape).Idx → α)
    (h : Shape.Concatenates [(⟨2, ![M, N₁]⟩ : Shape), ⟨2, ![M, N₂]⟩] ⟨2, ![M, N]⟩ 1)
    (p : Fin M) (q : Fin N) (q₂ : Fin N₂) (hq : q₂.val + N₁ = q.val) :
    concatenate ⟨2, ![M, N]⟩ 1 [⟨⟨2, ![M, N₁]⟩, x₁⟩, ⟨⟨2, ![M, N₂]⟩, x₂⟩] h (ix2 p q) = x₂ (ix2 p q₂) :=
  concatenate_pair_apply_right 1 x₁ x₂ h (ix2 p q) rfl rfl (ix2 p q₂)
    (fun b hb => match b, hb with
      | ⟨0, _⟩, _ => rfl
      | ⟨1, _⟩, hb => (hb (Fin.ext rfl)).elim)
    hq

/-- One above the other, a row of the upper matrix. -/
theorem concat_rows_left {M₁ M₂ M N : ℕ} (x₁ : (⟨2, ![M₁, N]⟩ : Shape).Idx → α) (x₂ : (⟨2, ![M₂, N]⟩ : Shape).Idx → α)
    (h : Shape.Concatenates [(⟨2, ![M₁, N]⟩ : Shape), ⟨2, ![M₂, N]⟩] ⟨2, ![M, N]⟩ 0)
    (p : Fin M) (q : Fin N) (p₁ : Fin M₁) (hp : p₁.val = p.val) :
    concatenate ⟨2, ![M, N]⟩ 0 [⟨⟨2, ![M₁, N]⟩, x₁⟩, ⟨⟨2, ![M₂, N]⟩, x₂⟩] h (ix2 p q) = x₁ (ix2 p₁ q) :=
  concatenate_pair_apply_left 0 x₁ x₂ h (ix2 p q) rfl (ix2 p₁ q) fun b => match b with
    | ⟨0, _⟩ => hp
    | ⟨1, _⟩ => rfl

/-- One above the other, a row of the lower matrix. -/
theorem concat_rows_right {M₁ M₂ M N : ℕ} (x₁ : (⟨2, ![M₁, N]⟩ : Shape).Idx → α) (x₂ : (⟨2, ![M₂, N]⟩ : Shape).Idx → α)
    (h : Shape.Concatenates [(⟨2, ![M₁, N]⟩ : Shape), ⟨2, ![M₂, N]⟩] ⟨2, ![M, N]⟩ 0)
    (p : Fin M) (q : Fin N) (p₂ : Fin M₂) (hp : p₂.val + M₁ = p.val) :
    concatenate ⟨2, ![M, N]⟩ 0 [⟨⟨2, ![M₁, N]⟩, x₁⟩, ⟨⟨2, ![M₂, N]⟩, x₂⟩] h (ix2 p q) = x₂ (ix2 p₂ q) :=
  concatenate_pair_apply_right 0 x₁ x₂ h (ix2 p q) rfl rfl (ix2 p₂ q)
    (fun b hb => match b, hb with
      | ⟨0, _⟩, hb => (hb (Fin.ext rfl)).elim
      | ⟨1, _⟩, _ => rfl)
    hp

/-- A vector as a 1 x n row, repeated down M rows (the host's two broadcasts): entry (p, q) is the vector's entry q. -/
theorem rowBias_apply {M n : ℕ} (b : (⟨1, ![n]⟩ : Shape).Idx → α)
    (h₁ : (⟨1, ![n]⟩ : Shape).BroadcastsInDim ⟨2, ![1, n]⟩ (![1] : Fin 1 → Fin 2))
    (h₂ : (⟨2, ![1, n]⟩ : Shape).BroadcastsInDim ⟨2, ![M, n]⟩ (![0, 1] : Fin 2 → Fin 2)) (p : Fin M) (q : Fin n) :
    broadcastInDim ⟨2, ![M, n]⟩ ![0, 1] h₂ (broadcastInDim ⟨2, ![1, n]⟩ ![1] h₁ b) (ix2 p q) = b (ix1 q) := by
  refine (broadcastInDim_apply ![0, 1] h₂ _ (ix2 p q) (ix2 (0 : Fin 1) q) fun a => ?_).trans
    (broadcastInDim_apply ![1] h₁ b (ix2 (0 : Fin 1) q) (ix1 q) fun a => ?_)
  · match a with
    | ⟨0, _⟩ => show (0 : ℕ) = if (1 : ℕ) = 1 then 0 else _; rw [if_pos rfl]
    | ⟨1, _⟩ =>
      show q.val = if n = 1 then 0 else q.val
      split
      · have := q.isLt; omega
      · rfl
  · match a with
    | ⟨0, _⟩ =>
      show q.val = if n = 1 then 0 else q.val
      split
      · have := q.isLt; omega
      · rfl

/-- A 1 x n row cast to its own shape and broadcast down M rows (the vector unit's form): entry (p, q) is the row's
    entry (0, q). -/
theorem rowBias_vec_apply {M n : ℕ} (v : (⟨2, ![1, n]⟩ : Shape).Idx → α)
    (hc : (⟨2, ![1, n]⟩ : Shape).ShapeCasts ⟨2, ![1, n]⟩) (hb : (⟨2, ![1, n]⟩ : Shape).Broadcasts ⟨2, ![M, n]⟩)
    (p : Fin M) (q : Fin n) :
    broadcastTo ⟨2, ![M, n]⟩ (shapeCast ⟨2, ![1, n]⟩ v hc) hb (ix2 p q) = v (ix2 (0 : Fin 1) q) := by
  rw [shapeCast_self]
  refine broadcastTo_apply v hb (ix2 p q) (ix2 (0 : Fin 1) q) fun a => ?_
  match a with
  | ⟨0, _⟩ => show (0 : ℕ) = if (1 : ℕ) = 1 then 0 else _; rw [if_pos rfl]
  | ⟨1, _⟩ =>
    show q.val = if n = 1 then 0 else q.val
    split
    · have := q.isLt; omega
    · rfl

/-- The entrywise sum of two vectors, reshaped to a 1 x n row, at (0, q). -/
theorem biasSumRow_apply {n : ℕ} {φ : FTy} (b₁ b₂ : FVec Ideal ⟨1, ![n]⟩ φ)
    (h : (⟨1, ![n]⟩ : Shape).ShapeCasts ⟨2, ![1, n]⟩) (u : Fin 1) (q : Fin n) :
    shapeCast ⟨2, ![1, n]⟩ (addf b₁ b₂) h (ix2 u q) = b₁ (ix1 q) + b₂ (ix1 q) :=
  shapeCast_a_1a_apply (addf b₁ b₂) h u q

end Cert.Rank2

end
-- ==== Proof.KernelBlocks.lean ====
/-
  What each matrix-product region leaves in its output array, as one function of the arrays it reads.

  Region 0 runs on a grid of ten points.  Point t reads rows 10000 t .. 10000 t + 9999 of the 100 000 x 64 left
  matrix and the whole 64 x 128 right matrix, and writes rows 10000 t .. 10000 t + 9999 of the 100 000 x 128 output:
  entry (p, q) of its block is the sum over k < 64 of left (10000 t + p, k) * right (k, q) (the change of float format
  before the product is the identity on exact values, and the accumulator starts at zero).  So block t of the output
  is block t of the whole product `mm left right`, the ten blocks tile the output, and the output array ends at the
  whole product.  Region 1 is the same with a 128-wide contraction and a 1 x 64 bias row added to every row.
-/
import proofs.«113151_j32873679683756_1_alg».proof.Proof.Gen.KernelIdeal.Frame
import proofs.«113151_j32873679683756_1_alg».proof.Proof.LibMatmul
import proofs.«113151_j32873679683756_1_alg».proof.Proof.LibRank2
import Idealize.ShloMosaic.Lib.Pipeline.Value

set_option maxRecDepth 16384

noncomputable section

namespace Cert.KernelIdeal.Blocks

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The product of an M x K matrix by a K x N matrix, entry by entry. -/
def mm {M K N : ℕ} (A : (⟨2, ![M, K]⟩ : Shape).Idx → EReal) (B : (⟨2, ![K, N]⟩ : Shape).Idx → EReal) :
    (⟨2, ![M, N]⟩ : Shape).Idx → EReal :=
  fun i => ∑ k : Fin K, A (ix2 (⟨(i 0).val, idx2_lt0 i⟩ : Fin M) k) * B (ix2 k (⟨(i 1).val, idx2_lt1 i⟩ : Fin N))

theorem mm_ix2 {M K N : ℕ} (A : (⟨2, ![M, K]⟩ : Shape).Idx → EReal) (B : (⟨2, ![K, N]⟩ : Shape).Idx → EReal)
    (p : Fin M) (q : Fin N) : mm A B (ix2 p q) = ∑ k : Fin K, A (ix2 p k) * B (ix2 k q) := rfl

/-- The same product with a 1 x N row added to every row. -/
def mmb {M K N : ℕ} (A : (⟨2, ![M, K]⟩ : Shape).Idx → EReal) (B : (⟨2, ![K, N]⟩ : Shape).Idx → EReal)
    (b : (⟨2, ![1, N]⟩ : Shape).Idx → EReal) : (⟨2, ![M, N]⟩ : Shape).Idx → EReal :=
  fun i => mm A B i + b (ix2 (0 : Fin 1) (⟨(i 1).val, idx2_lt1 i⟩ : Fin N))

theorem mmb_ix2 {M K N : ℕ} (A : (⟨2, ![M, K]⟩ : Shape).Idx → EReal) (B : (⟨2, ![K, N]⟩ : Shape).Idx → EReal)
    (b : (⟨2, ![1, N]⟩ : Shape).Idx → EReal) (p : Fin M) (q : Fin N) :
    mmb A B b (ix2 p q) = ∑ k : Fin K, A (ix2 p k) * B (ix2 k q) + b (ix2 (0 : Fin 1) q) := rfl

theorem hz : (![0, 0] : Fin 2 → Nat) = fun _ => 0 := funext fun a => by fin_cases a <;> rfl

/-! ## Region 0 -/

/-- Region 0's body at an entry of its block: the contraction over the 64 shared positions. -/
theorem pay0_apply (x0 : Vec Ideal S10000x64 .f32) (x1 : Vec Ideal S64x128 .f32) (p : Fin 10000) (q : Fin 128) :
    k0_pay1 (F := Ideal) x0 x1 (ix2 p q) = ∑ k : Fin 64, x0 (ix2 p k) * x1 (ix2 k q) := by
  unfold k0_pay1
  rw [shapeCast_self]
  exact Cert.MatmulAt.matmul_zero_plain_apply (φ₁ := .bf16) (φ₂ := .bf16) dot_S10000x64_S64x128_S10000x128_1_0_0_1_n_n_wf none
    (truncf .bf16 x0 bitsLt_bf16_f32) (truncf .bf16 x1 bitsLt_bf16_f32) p q

/-- The printed index maps over the grid: the left matrix and the output move one block of rows per point, the right
    matrix stays. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section
variable (V : (c : Dev nD) → (b : Ref sig .tc) → Buf (Elt Ideal) ((c : Thread nD τ).loc b))

/-- What point t of region 0 writes back is block t of the whole product. -/
theorem flushed0 (c : Dev nD) (t : Fin cfg0.N) :
    (dat0 V c).flushed 2 t = ((cfg0.win 2).blk t).view.read (Elt Ideal)
      (mm (M := 100000) (K := 64) (N := 128) (V c main_arg1) (V c main_v2)) := by
  show (cfg0.win 2).cut (grid0.coords t) ((dat0 V c).after 2 t) = _
  rw [after0_2]
  unfold out0_2
  rw [View.canon_unit_zero hz]
  simp only [View.ld_unit_zero (S := S10000x64) hz, View.ld_unit_zero (S := S64x128) hz]
  obtain ⟨e0, e1, e2, e3, e4, e5⟩ := idx_facts0 t
  funext y
  obtain ⟨p, q, rfl⟩ : ∃ (p : Fin 10000) (q : Fin 128), y = ix2 p q := ⟨y 0, y 1, eq_ix2 y⟩
  have ht : t.val < 10 := lt_of_lt_of_eq t.isLt N_0
  show k0_pay1 (iblk0 V c 0 t) (iblk0 V c 1 t) (ix2 p q)
    = mm (M := 100000) (K := 64) (N := 128) (V c main_arg1) (V c main_v2) (((cfg0.win 2).blk t).view.emb (ix2 p q))
  refine (pay0_apply _ _ p q).trans ?_
  have hemb : ((cfg0.win 2).blk t).view.emb (ix2 p q)
      = ix2 (⟨t.val * 10000 + p.val, by have := p.isLt; omega⟩ : Fin 100000) q :=
    funext fun a => Fin.ext (by
      match a with
      | ⟨0, _⟩ => show win0_2.index t (0 : Fin 2) * 10000 + 1 * p.val = t.val * 10000 + p.val; omega
      | ⟨1, _⟩ => show win0_2.index t (1 : Fin 2) * 128 + 1 * q.val = q.val; omega)
  rw [hemb, mm_ix2]
  refine Finset.sum_congr rfl fun k _ => ?_
  refine congrArg₂ (· * ·) ?_ ?_
  · show V c main_arg1 (((cfg0.win 0).blk t).view.emb (ix2 p k)) = V c main_arg1 (ix2 _ k)
    refine congrArg (V c main_arg1) (funext fun a => Fin.ext ?_)
    match a with
    | ⟨0, _⟩ => show win0_0.index t (0 : Fin 2) * 10000 + 1 * p.val = t.val * 10000 + p.val; omega
    | ⟨1, _⟩ => show win0_0.index t (1 : Fin 2) * 64 + 1 * k.val = k.val; omega
  · show V c main_v2 (((cfg0.win 1).blk t).view.emb (ix2 k q)) = V c main_v2 (ix2 k q)
    refine congrArg (V c main_v2) (funext fun a => Fin.ext ?_)
    match a with
    | ⟨0, _⟩ => show win0_1.index t (0 : Fin 2) * 64 + 1 * k.val = k.val; omega
    | ⟨1, _⟩ => show win0_1.index t (1 : Fin 2) * 128 + 1 * q.val = q.val; omega

/-- The ten blocks tile the output, so region 0's output array ends at the whole product. -/
theorem final0 (c : Dev nD) :
    (dat0 V c).arrAt 2 cfg0.N = mm (M := 100000) (K := 64) (N := 128) (V c main_arg1) (V c main_v2) :=
  (dat0 V c).arrAt_eq_of_cover 2 _ (fun t _ => flushed0 V c t) fun i => by
    have hi0 : (i 0).val < 100000 := (i 0).isLt
    have hi1 : (i 1).val < 128 := (i 1).isLt
    have hN : cfg0.N = 10 := N_0
    obtain ⟨t, hv⟩ : ∃ t : Fin cfg0.N, t.val = (i 0).val / 10000 := ⟨⟨(i 0).val / 10000, by rw [hN]; omega⟩, rfl⟩
    obtain ⟨e0, e1, e2, e3, e4, e5⟩ := idx_facts0 t
    refine ⟨t, flush0_2 t, ?_⟩
    show i ∈ ((View.whole main_v3).slice (win0_2.rect t)).set
    rw [View.set_slice_whole, Rect.mem_set_unit]
    intro a
    match a with
    | ⟨0, _⟩ =>
      show win0_2.index t (0 : Fin 2) * 10000 ≤ (i 0).val ∧ (i 0).val < win0_2.index t (0 : Fin 2) * 10000 + 10000
      omega
    | ⟨1, _⟩ =>
      show win0_2.index t (1 : Fin 2) * 128 ≤ (i 1).val ∧ (i 1).val < win0_2.index t (1 : Fin 2) * 128 + 128
      omega

/-! ## Region 1 -/

/-- Region 1's body at an entry of its block: the contraction over the 128 shared positions, plus the bias row's entry. -/
theorem pay1_apply (x0 : Vec Ideal S10000x128 .f32) (x1 : Vec Ideal S128x64 .f32) (x2 : Vec Ideal S1x64 .f32)
    (p : Fin 10000) (q : Fin 64) :
    k1_pay1 (F := Ideal) x0 x1 x2 (ix2 p q) = ∑ k : Fin 128, x0 (ix2 p k) * x1 (ix2 k q) + x2 (ix2 (0 : Fin 1) q) := by
  unfold k1_pay1
  rw [shapeCast_self x0, shapeCast_self x1]
  exact congrArg₂ (· + ·)
    (Cert.MatmulAt.matmul_zero_plain_apply (φ₁ := .bf16) (φ₂ := .bf16) dot_S10000x128_S128x64_S10000x64_1_0_0_1_n_n_wf none
      (truncf .bf16 x0 bitsLt_bf16_f32) (truncf .bf16 x1 bitsLt_bf16_f32) p q)
    (Cert.Rank2.rowBias_vec_apply x2 shapeCasts_S1x64_S1x64 broadcasts_S1x64_S10000x64 p q)

/-- The printed index maps over the grid: the left matrix and the output move one block of rows per point, the right
    matrix and the bias row stay. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t of region 1 writes back is block t of the whole product with the bias row added. -/
theorem flushed1 (c : Dev nD) (t : Fin cfg1.N) :
    (dat1 V c).flushed 3 t = ((cfg1.win 3).blk t).view.read (Elt Ideal)
      (mmb (M := 100000) (K := 128) (N := 64) (V c main_v92) (V c main_v95) (V c main_v97)) := by
  show (cfg1.win 3).cut (grid1.coords t) ((dat1 V c).after 3 t) = _
  rw [after1_3]
  unfold out1_3
  rw [View.canon_unit_zero hz]
  simp only [View.ld_unit_zero (S := S10000x128) hz, View.ld_unit_zero (S := S128x64) hz, View.ld_unit_zero (S := S1x64) hz]
  obtain ⟨e0, e1, e2, e3, e4, e5, e6, e7⟩ := idx_facts1 t
  funext y
  obtain ⟨p, q, rfl⟩ : ∃ (p : Fin 10000) (q : Fin 64), y = ix2 p q := ⟨y 0, y 1, eq_ix2 y⟩
  have ht : t.val < 10 := lt_of_lt_of_eq t.isLt N_1
  show k1_pay1 (iblk1 V c 0 t) (iblk1 V c 1 t) (iblk1 V c 2 t) (ix2 p q)
    = mmb (M := 100000) (K := 128) (N := 64) (V c main_v92) (V c main_v95) (V c main_v97)
        (((cfg1.win 3).blk t).view.emb (ix2 p q))
  refine (pay1_apply _ _ _ p q).trans ?_
  have hemb : ((cfg1.win 3).blk t).view.emb (ix2 p q)
      = ix2 (⟨t.val * 10000 + p.val, by have := p.isLt; omega⟩ : Fin 100000) q :=
    funext fun a => Fin.ext (by
      match a with
      | ⟨0, _⟩ => show win1_3.index t (0 : Fin 2) * 10000 + 1 * p.val = t.val * 10000 + p.val; omega
      | ⟨1, _⟩ => show win1_3.index t (1 : Fin 2) * 64 + 1 * q.val = q.val; omega)
  rw [hemb, mmb_ix2]
  refine congrArg₂ (· + ·) (Finset.sum_congr rfl fun k _ => congrArg₂ (· * ·) ?_ ?_) ?_
  · show V c main_v92 (((cfg1.win 0).blk t).view.emb (ix2 p k)) = V c main_v92 (ix2 _ k)
    refine congrArg (V c main_v92) (funext fun a => Fin.ext ?_)
    match a with
    | ⟨0, _⟩ => show win1_0.index t (0 : Fin 2) * 10000 + 1 * p.val = t.val * 10000 + p.val; omega
    | ⟨1, _⟩ => show win1_0.index t (1 : Fin 2) * 128 + 1 * k.val = k.val; omega
  · show V c main_v95 (((cfg1.win 1).blk t).view.emb (ix2 k q)) = V c main_v95 (ix2 k q)
    refine congrArg (V c main_v95) (funext fun a => Fin.ext ?_)
    match a with
    | ⟨0, _⟩ => show win1_1.index t (0 : Fin 2) * 128 + 1 * k.val = k.val; omega
    | ⟨1, _⟩ => show win1_1.index t (1 : Fin 2) * 64 + 1 * q.val = q.val; omega
  · show V c main_v97 (((cfg1.win 2).blk t).view.emb (ix2 (0 : Fin 1) q)) = V c main_v97 (ix2 (0 : Fin 1) q)
    refine congrArg (V c main_v97) (funext fun a => Fin.ext ?_)
    match a with
    | ⟨0, _⟩ => show win1_2.index t (0 : Fin 2) * 1 + 1 * 0 = 0; omega
    | ⟨1, _⟩ => show win1_2.index t (1 : Fin 2) * 64 + 1 * q.val = q.val; omega

/-- The ten blocks tile the output, so region 1's output array ends at the whole product with the bias row added. -/
theorem final1 (c : Dev nD) :
    (dat1 V c).arrAt 3 cfg1.N
      = mmb (M := 100000) (K := 128) (N := 64) (V c main_v92) (V c main_v95) (V c main_v97) :=
  (dat1 V c).arrAt_eq_of_cover 3 _ (fun t _ => flushed1 V c t) fun i => by
    have hi0 : (i 0).val < 100000 := (i 0).isLt
    have hi1 : (i 1).val < 64 := (i 1).isLt
    have hN : cfg1.N = 10 := N_1
    obtain ⟨t, hv⟩ : ∃ t : Fin cfg1.N, t.val = (i 0).val / 10000 := ⟨⟨(i 0).val / 10000, by rw [hN]; omega⟩, rfl⟩
    obtain ⟨e0, e1, e2, e3, e4, e5, e6, e7⟩ := idx_facts1 t
    refine ⟨t, flush1_3 t, ?_⟩
    show i ∈ ((View.whole main_v98).slice (win1_3.rect t)).set
    rw [View.set_slice_whole, Rect.mem_set_unit]
    intro a
    match a with
    | ⟨0, _⟩ =>
      show win1_3.index t (0 : Fin 2) * 10000 ≤ (i 0).val ∧ (i 0).val < win1_3.index t (0 : Fin 2) * 10000 + 10000
      omega
    | ⟨1, _⟩ =>
      show win1_3.index t (1 : Fin 2) * 64 ≤ (i 1).val ∧ (i 1).val < win1_3.index t (1 : Fin 2) * 64 + 64
      omega

end

end Cert.KernelIdeal.Blocks

end
-- ==== Proof.Propagate.lean ====
/-
  The graph convolution both programs share, as one function.

  For an edge list `e` (row 0 the source nodes, row 1 the destination nodes, 1 600 000 edges) over 100 000 nodes,
  every node is given a self loop, so the lists become `src`, `dst` of length 1 700 000.  The degree of a node is
  the number of list positions whose destination it is; `dinv` is its inverse square root; the weight of list
  position j is `dinv (src j) * dinv (dst j)`; a negative index is first moved up by the number of nodes.  The
  propagation of a feature matrix `x` is, at node n, the sum over the positions j with `dst j = n` of
  `x (src j) * weight j`, plus a bias row: `propagate x e b`.  Both programs apply exactly this chain of host
  operations; they differ only in how they compute the `x` that goes in and in how they combine what comes out, so
  the chain is never opened: equal inputs give equal outputs.

  `refOut` is the reference's whole result in these terms: with `xform h W = h · Wᵀ`,
      (xform (propagate (xform h W₊) e₊ b₊) Wψ₊ + bψ₊) + (xform (propagate (xform h W₋) e₋ b₋) Wψ₋ + bψ₋).
-/
import proofs.«113151_j32873679683756_1_alg».proof.ReferenceIdeal
import proofs.«113151_j32873679683756_1_alg».proof.Proof.Gen.ReferenceIdeal

noncomputable section

namespace Cert.Gcn

open Cert.ReferenceIdeal Cert.ReferenceIdeal.Gen Idealize.ShloMosaic Idealize.ShloMosaic.TcCoe Idealize.SL.Sem

variable {F : FTy → Type} [FloatOps F]

/-- The source nodes of the edges, then every node once (the self loops). -/
def srcIdx (e : (⟨S2x1600000, .i32⟩ : BufTy).Contents (Elt F)) : (⟨S1700000, .i32⟩ : BufTy).Contents (Elt F) :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- The destination nodes of the edges, then every node once. -/
def dstIdx (e : (⟨S2x1600000, .i32⟩ : BufTy).Contents (Elt F)) : (⟨S1700000, .i32⟩ : BufTy).Contents (Elt F) :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- A negative index counts from the end: it is moved up by the number of nodes. -/
def wrap (i : (⟨S1700000, .i32⟩ : BufTy).Contents (Elt F)) : (⟨S1700000, .i32⟩ : BufTy).Contents (Elt F) :=
  select (cmpi .slt i (broadcastInDim S1700000 ![] bcast_S_S1700000 (constantI S_ 32 0#32))) (addi i (broadcastInDim S1700000 ![] bcast_S_S1700000 (constantI S_ 32 100000#32))) i

/-- The inverse square root of each node's degree (the number of list positions it is the destination of). -/
def dinv (e : (⟨S2x1600000, .i32⟩ : BufTy).Contents (Elt F)) : (⟨S100000, .f32⟩ : BufTy).Contents (Elt F) :=
  Host.rsqrt (Host.scatterAdd scatter_S100000_S1700000x1_S1700000_n_0_0_1 (broadcastInDim S100000 ![] bcast_S_S100000 (constant S_ .f32 0x00000000#32)) (broadcastInDim S1700000x1 ![0] bcast_S1700000_S1700000x1_0 (dstIdx e)) (broadcastInDim S1700000 ![] bcast_S_S1700000 (constant S_ .f32 0x3F800000#32)))

/-- The weight of each list position: `dinv` at its source times `dinv` at its destination. -/
def weight (e : (⟨S2x1600000, .i32⟩ : BufTy).Contents (Elt F)) : (⟨S1700000, .f32⟩ : BufTy).Contents (Elt F) :=
  mulf (Host.gather gather_S100000_S1700000x1_S1700000_n_0_n_n_0_1_1 (dinv e) (broadcastInDim S1700000x1 ![0] bcast_S1700000_S1700000x1_0 (wrap (srcIdx e)))) (Host.gather gather_S100000_S1700000x1_S1700000_n_0_n_n_0_1_1 (dinv e) (broadcastInDim S1700000x1 ![0] bcast_S1700000_S1700000x1_0 (wrap (dstIdx e))))

/-- A length-64 vector as a row, repeated down all 100 000 rows. -/
def rowBias (b : (⟨S64, .f32⟩ : BufTy).Contents (Elt F)) : (⟨S100000x64, .f32⟩ : BufTy).Contents (Elt F) :=
  broadcastInDim S100000x64 ![0, 1] bcast_S1x64_S100000x64_0_1 (broadcastInDim S1x64 ![1] bcast_S64_S1x64_1 b)

/-- Normalized message passing: at node n the sum, over the list positions whose destination is n, of the source's
    row of `x` times the position's weight; plus the bias row. -/
def propagate (x : (⟨S100000x64, .f32⟩ : BufTy).Contents (Elt F)) (e : (⟨S2x1600000, .i32⟩ : BufTy).Contents (Elt F)) (b : (⟨S64, .f32⟩ : BufTy).Contents (Elt F)) : (⟨S100000x64, .f32⟩ : BufTy).Contents (Elt F) :=
  addf (Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 (dstIdx e)) (mulf (Host.gather gather_S100000x64_S1700000x1_S1700000x64_1_0_n_n_0_1_164 x (broadcastInDim S1700000x1 ![0] bcast_S1700000_S1700000x1_0 (wrap (srcIdx e)))) (broadcastInDim S1700000x64 ![0, 1] bcast_S1700000x1_S1700000x64_0_1 (broadcastInDim S1700000x1 ![0] bcast_S1700000_S1700000x1_0 (weight e))))) (rowBias b)

/-- `h · Wᵀ`: a 100 000 x 64 matrix times the transpose of a 64 x 64 matrix. -/
def xform (h : (⟨S100000x64, .f32⟩ : BufTy).Contents (Elt F)) (W : (⟨S64x64, .f32⟩ : BufTy).Contents (Elt F)) : (⟨S100000x64, .f32⟩ : BufTy).Contents (Elt F) :=
  Host.dotGeneral dot_S100000x64_S64x64_S100000x64_1_0_0_1_n_n none h (transpose S64x64 [1, 0] W transposes_S64x64_S64x64_1_0)

/-- The reference's result: each polarity's convolution through its own output transform and bias, then added. -/
def refOut (h : (⟨S100000x64, .f32⟩ : BufTy).Contents (Elt F)) (ep en : (⟨S2x1600000, .i32⟩ : BufTy).Contents (Elt F))
    (Wp : (⟨S64x64, .f32⟩ : BufTy).Contents (Elt F)) (bp : (⟨S64, .f32⟩ : BufTy).Contents (Elt F)) (Wn : (⟨S64x64, .f32⟩ : BufTy).Contents (Elt F)) (bn : (⟨S64, .f32⟩ : BufTy).Contents (Elt F))
    (Wψp : (⟨S64x64, .f32⟩ : BufTy).Contents (Elt F)) (bψp : (⟨S64, .f32⟩ : BufTy).Contents (Elt F)) (Wψn : (⟨S64x64, .f32⟩ : BufTy).Contents (Elt F)) (bψn : (⟨S64, .f32⟩ : BufTy).Contents (Elt F)) :
    (⟨S100000x64, .f32⟩ : BufTy).Contents (Elt F) :=
  addf (addf (xform (propagate (xform h Wp) ep bp) Wψp) (rowBias bψp)) (addf (xform (propagate (xform h Wn) en bn) Wψn) (rowBias bψn))

end Cert.Gcn

end
-- ==== Proof.KernelHost.lean ====
/-
  The idealized kernel's two stretches of host operations, read at the buffers the regions stage.

  Before region 0: the fused weight is the two 64 x 64 weights, each transposed, laid side by side (64 x 128).
  Between the regions: region 0's 100 000 x 128 output is cut into its left and right 64 columns; each half goes through
  the graph convolution of `Propagate` with its own edge list and bias (the same chain of operations the reference
  applies, so it is named, not opened); the two results are laid side by side (100 000 x 128); the two output weights,
  each transposed, are stacked (128 x 64); and the two output biases are added and made a 1 x 64 row.
  A stretch leaves untouched every buffer it does not write.
-/
import proofs.«113151_j32873679683756_1_alg».proof.Proof.Gen.KernelIdeal.Frame
import proofs.«113151_j32873679683756_1_alg».proof.Proof.Propagate
import Idealize.ShloMosaic.Lib.StableHlo.Run

set_option maxRecDepth 16384

noncomputable section

namespace Cert.KernelIdeal.HostStretch

open Cert.KernelIdeal Cert.KernelIdeal.Gen
open Idealize.ShloMosaic Idealize.ShloMosaic.TcCoe Idealize.SL.Sem Idealize.ShloMosaic.StableHlo

variable {F : FTy → Type} [FloatOps F]

/-! ## Before region 0 -/

/-- The fused first weight: the two weights, each transposed, side by side. -/
theorem fusedWeight (W : Valuation τ sig (Elt F)) :
    after hostOps0 W (Proc.devRef .tc main_v2)
      = concatenate S64x128 1 [⟨S64x64, transpose S64x64 [1, 0] (W (Proc.devRef .tc main_arg4)) transposes_S64x64_S64x64_1_0⟩,
          ⟨S64x64, transpose S64x64 [1, 0] (W (Proc.devRef .tc main_arg6)) transposes_S64x64_S64x64_1_0⟩] concatenates_S64x64_S64x64_S64x128_d1 := by
  after_results <;> rfl

theorem keep0_arg1 (W : Valuation τ sig (Elt F)) : after hostOps0 W (Proc.devRef .tc main_arg1) = (W (Proc.devRef .tc main_arg1)) := by
  after_results <;> rfl
theorem keep0_arg2 (W : Valuation τ sig (Elt F)) : after hostOps0 W (Proc.devRef .tc main_arg2) = (W (Proc.devRef .tc main_arg2)) := by
  after_results <;> rfl
theorem keep0_arg3 (W : Valuation τ sig (Elt F)) : after hostOps0 W (Proc.devRef .tc main_arg3) = (W (Proc.devRef .tc main_arg3)) := by
  after_results <;> rfl
theorem keep0_arg5 (W : Valuation τ sig (Elt F)) : after hostOps0 W (Proc.devRef .tc main_arg5) = (W (Proc.devRef .tc main_arg5)) := by
  after_results <;> rfl
theorem keep0_arg7 (W : Valuation τ sig (Elt F)) : after hostOps0 W (Proc.devRef .tc main_arg7) = (W (Proc.devRef .tc main_arg7)) := by
  after_results <;> rfl
theorem keep0_arg8 (W : Valuation τ sig (Elt F)) : after hostOps0 W (Proc.devRef .tc main_arg8) = (W (Proc.devRef .tc main_arg8)) := by
  after_results <;> rfl
theorem keep0_arg9 (W : Valuation τ sig (Elt F)) : after hostOps0 W (Proc.devRef .tc main_arg9) = (W (Proc.devRef .tc main_arg9)) := by
  after_results <;> rfl
theorem keep0_arg10 (W : Valuation τ sig (Elt F)) : after hostOps0 W (Proc.devRef .tc main_arg10) = (W (Proc.devRef .tc main_arg10)) := by
  after_results <;> rfl
theorem keep0_arg11 (W : Valuation τ sig (Elt F)) : after hostOps0 W (Proc.devRef .tc main_arg11) = (W (Proc.devRef .tc main_arg11)) := by
  after_results <;> rfl

/-! ## Between the regions -/

set_option maxHeartbeats 4000000 in
/-- Region 1's left operand: each half of region 0's output through the graph convolution, side by side. -/
theorem convolved (W : Valuation τ sig (Elt F)) :
    after hostOps1 W (Proc.devRef .tc main_v92)
      = concatenate S100000x128 1
          [⟨S100000x64, Cert.Gcn.propagate (extractStridedSlice S100000x64 ![0, 0] (W (Proc.devRef .tc main_v3)) slices_S100000x128_S100000x64_0_0) (W (Proc.devRef .tc main_arg2)) (W (Proc.devRef .tc main_arg5))⟩,
           ⟨S100000x64, Cert.Gcn.propagate (extractStridedSlice S100000x64 ![0, 64] (W (Proc.devRef .tc main_v3)) slices_S100000x128_S100000x64_0_64) (W (Proc.devRef .tc main_arg3)) (W (Proc.devRef .tc main_arg7))⟩]
          concatenates_S100000x64_S100000x64_S100000x128_d1 := by
  after_results_simp <;>
    (unfold Cert.Gcn.propagate Cert.Gcn.rowBias Cert.Gcn.weight Cert.Gcn.dinv Cert.Gcn.wrap Cert.Gcn.srcIdx Cert.Gcn.dstIdx; rfl)

set_option maxHeartbeats 4000000 in
/-- Region 1's right operand: the two output weights, each transposed, stacked. -/
theorem stackedWeight (W : Valuation τ sig (Elt F)) :
    after hostOps1 W (Proc.devRef .tc main_v95)
      = concatenate S128x64 0 [⟨S64x64, transpose S64x64 [1, 0] (W (Proc.devRef .tc main_arg8)) transposes_S64x64_S64x64_1_0⟩,
          ⟨S64x64, transpose S64x64 [1, 0] (W (Proc.devRef .tc main_arg10)) transposes_S64x64_S64x64_1_0⟩] concatenates_S64x64_S64x64_S128x64_d0 := by
  after_results_simp <;> rfl

set_option maxHeartbeats 4000000 in
/-- Region 1's bias row: the sum of the two output biases as a 1 x 64 row. -/
theorem biasRow (W : Valuation τ sig (Elt F)) :
    after hostOps1 W (Proc.devRef .tc main_v97)
      = shapeCast _ (addf (W (Proc.devRef .tc main_arg9)) (W (Proc.devRef .tc main_arg11))) shapeCasts_S64_S1x64 := by
  after_results_simp <;> rfl

end Cert.KernelIdeal.HostStretch

end
-- ==== Proof.KernelResult.lean ====
/-
  The idealized kernel's result array as one function of the argument arrays.

  Reading the buffer contents at the last segment boundary back through the four segments:
  the result is region 1's output, the product of its left operand by its right operand plus its bias row;
  the left operand is the two graph convolutions side by side, each of one half of region 0's output;
  region 0's output is the product of h by the fused first weight; and every argument array a stretch or a region
  reads is still what was launched, because no host operation and no region writes an argument.
      X         = h · [W₊ᵀ | W₋ᵀ]
      kernelOut = [propagate X[:, :64] e₊ b₊ | propagate X[:, 64:] e₋ b₋] · [Wψ₊ᵀ ; Wψ₋ᵀ] + (bψ₊ + bψ₋)
-/
import proofs.«113151_j32873679683756_1_alg».proof.Proof.KernelBlocks
import proofs.«113151_j32873679683756_1_alg».proof.Proof.KernelHost

set_option maxRecDepth 16384

noncomputable section

namespace Cert.KernelIdeal.Result

open Cert.KernelIdeal Cert.KernelIdeal.Gen Cert.KernelIdeal.Blocks Cert.KernelIdeal.HostStretch
open Idealize.ShloMosaic Idealize.ShloMosaic.TcCoe Idealize.SL.Sem Idealize.ShloMosaic.StableHlo

/-- h times the two first weights, each transposed, side by side: 100 000 x 128. -/
def firstProduct (h : (⟨S100000x64, .f32⟩ : BufTy).Contents (Elt Ideal)) (Wp Wn : (⟨S64x64, .f32⟩ : BufTy).Contents (Elt Ideal)) : (⟨S100000x128, .f32⟩ : BufTy).Contents (Elt Ideal) :=
  mm (M := 100000) (K := 64) (N := 128) h
    (concatenate S64x128 1 [⟨S64x64, transpose S64x64 [1, 0] Wp transposes_S64x64_S64x64_1_0⟩,
      ⟨S64x64, transpose S64x64 [1, 0] Wn transposes_S64x64_S64x64_1_0⟩] concatenates_S64x64_S64x64_S64x128_d1)

/-- The kernel's result as a function of its arguments. -/
def kernelOut (h : (⟨S100000x64, .f32⟩ : BufTy).Contents (Elt Ideal)) (ep en : (⟨S2x1600000, .i32⟩ : BufTy).Contents (Elt Ideal))
    (Wp : (⟨S64x64, .f32⟩ : BufTy).Contents (Elt Ideal)) (bp : (⟨S64, .f32⟩ : BufTy).Contents (Elt Ideal)) (Wn : (⟨S64x64, .f32⟩ : BufTy).Contents (Elt Ideal)) (bn : (⟨S64, .f32⟩ : BufTy).Contents (Elt Ideal))
    (Wψp : (⟨S64x64, .f32⟩ : BufTy).Contents (Elt Ideal)) (bψp : (⟨S64, .f32⟩ : BufTy).Contents (Elt Ideal)) (Wψn : (⟨S64x64, .f32⟩ : BufTy).Contents (Elt Ideal)) (bψn : (⟨S64, .f32⟩ : BufTy).Contents (Elt Ideal)) :
    (⟨S100000x64, .f32⟩ : BufTy).Contents (Elt Ideal) :=
  mmb (M := 100000) (K := 128) (N := 64)
    (concatenate S100000x128 1
      [⟨S100000x64, Cert.Gcn.propagate (F := Ideal) (extractStridedSlice S100000x64 ![0, 0] (firstProduct h Wp Wn) slices_S100000x128_S100000x64_0_0) ep bp⟩,
       ⟨S100000x64, Cert.Gcn.propagate (F := Ideal) (extractStridedSlice S100000x64 ![0, 64] (firstProduct h Wp Wn) slices_S100000x128_S100000x64_0_64) en bn⟩]
      concatenates_S100000x64_S100000x64_S100000x128_d1)
    (concatenate S128x64 0 [⟨S64x64, transpose S64x64 [1, 0] Wψp transposes_S64x64_S64x64_1_0⟩,
      ⟨S64x64, transpose S64x64 [1, 0] Wψn transposes_S64x64_S64x64_1_0⟩] concatenates_S64x64_S64x64_S128x64_d0)
    (shapeCast _ (addf (F := Ideal) (φ := .f32) bψp bψn) shapeCasts_S64_S1x64)

variable (m : (ℓ : Loc nD τ sig) → Buf (Elt Ideal) ℓ) (ρ : Dev nD → PrngReg)

/-- An argument array no stretch and no region writes is, at region 1's entry and at region 0's entry, what was launched. -/
theorem W2_arg2 (c : Dev nD) : W2 m ρ c (Proc.devRef .tc main_arg2) = (m ((c : Thread nD τ).loc main_arg2)) :=
  (W2_of_ne m ρ c main_arg2 (by decide)).trans (keep0_arg2 (W0 m ρ c))
theorem W2_arg3 (c : Dev nD) : W2 m ρ c (Proc.devRef .tc main_arg3) = (m ((c : Thread nD τ).loc main_arg3)) :=
  (W2_of_ne m ρ c main_arg3 (by decide)).trans (keep0_arg3 (W0 m ρ c))
theorem W2_arg5 (c : Dev nD) : W2 m ρ c (Proc.devRef .tc main_arg5) = (m ((c : Thread nD τ).loc main_arg5)) :=
  (W2_of_ne m ρ c main_arg5 (by decide)).trans (keep0_arg5 (W0 m ρ c))
theorem W2_arg7 (c : Dev nD) : W2 m ρ c (Proc.devRef .tc main_arg7) = (m ((c : Thread nD τ).loc main_arg7)) :=
  (W2_of_ne m ρ c main_arg7 (by decide)).trans (keep0_arg7 (W0 m ρ c))
theorem W2_arg8 (c : Dev nD) : W2 m ρ c (Proc.devRef .tc main_arg8) = (m ((c : Thread nD τ).loc main_arg8)) :=
  (W2_of_ne m ρ c main_arg8 (by decide)).trans (keep0_arg8 (W0 m ρ c))
theorem W2_arg9 (c : Dev nD) : W2 m ρ c (Proc.devRef .tc main_arg9) = (m ((c : Thread nD τ).loc main_arg9)) :=
  (W2_of_ne m ρ c main_arg9 (by decide)).trans (keep0_arg9 (W0 m ρ c))
theorem W2_arg10 (c : Dev nD) : W2 m ρ c (Proc.devRef .tc main_arg10) = (m ((c : Thread nD τ).loc main_arg10)) :=
  (W2_of_ne m ρ c main_arg10 (by decide)).trans (keep0_arg10 (W0 m ρ c))
theorem W2_arg11 (c : Dev nD) : W2 m ρ c (Proc.devRef .tc main_arg11) = (m ((c : Thread nD τ).loc main_arg11)) :=
  (W2_of_ne m ρ c main_arg11 (by decide)).trans (keep0_arg11 (W0 m ρ c))

/-- Region 0's output array: h times the fused first weight. -/
theorem W2_v3 (c : Dev nD) :
    W2 m ρ c (Proc.devRef .tc main_v3) = firstProduct (m ((c : Thread nD τ).loc main_arg1)) (m ((c : Thread nD τ).loc main_arg4)) (m ((c : Thread nD τ).loc main_arg6)) := by
  have e1 : V1 m ρ c main_arg1 = (m ((c : Thread nD τ).loc main_arg1)) := keep0_arg1 (W0 m ρ c)
  have e2 : V1 m ρ c main_v2 = _ := fusedWeight (W0 m ρ c)
  refine (W2_arr m ρ c 2).trans ((final0 (V1 m ρ) c).trans ?_)
  rw [e1, e2]
  rfl

/-- The result buffer at the last boundary is `kernelOut` of the launched arguments. -/
theorem value (c : Dev nD) :
    W4 m ρ c (Proc.devRef .tc main_v98)
      = kernelOut (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  have e92 : V3 m ρ c main_v92 = _ := convolved (W2 m ρ c)
  have e95 : V3 m ρ c main_v95 = _ := stackedWeight (W2 m ρ c)
  have e97 : V3 m ρ c main_v97 = _ := biasRow (W2 m ρ c)
  refine (W4_arr m ρ c 3).trans ((final1 (V3 m ρ) c).trans ?_)
  rw [e92, e95, e97, W2_v3, W2_arg2, W2_arg3, W2_arg5, W2_arg7, W2_arg8, W2_arg9, W2_arg10, W2_arg11]
  rfl

end Cert.KernelIdeal.Result

end
-- ==== Proof.RefSide.lean ====
/-
  The reference's result, named and read at an entry.

  The reference's run ends with its result buffer at a long composed term of the argument arrays; that term is
  `refOut` of them (the same operations, grouped under the names of `Propagate`).  At the exact instance, with
  P = propagate (h · W₊ᵀ) e₊ b₊ and N = propagate (h · W₋ᵀ) e₋ b₋, entry (p, q) of the result is
      (Σ_k P (p, k) * Wψ₊ (q, k) + bψ₊ q) + (Σ_k N (p, k) * Wψ₋ (q, k) + bψ₋ q),
  each sum over the 64 feature positions: the host's matrix product is the plain contraction, its right operand a
  transpose, and the bias a vector repeated down the rows.
-/
import proofs.«113151_j32873679683756_1_alg».proof.Proof.Gen.ReferenceIdeal.Run
import proofs.«113151_j32873679683756_1_alg».proof.Proof.Propagate
import proofs.«113151_j32873679683756_1_alg».proof.Proof.LibRank2

noncomputable section

namespace Cert.Gcn

open Cert.ReferenceIdeal Cert.ReferenceIdeal.Gen Cert.ReferenceIdeal.Value
open Idealize.ShloMosaic Idealize.ShloMosaic.TcCoe Idealize.SL.Sem Idealize.ShloMosaic.ValueIdx

set_option maxRecDepth 8192 in
/-- The run's result term is `refOut` of the argument arrays. -/
theorem res_eq {F : FTy → Type} [FloatOps F] (m : (ℓ : Loc nD τ sig) → Buf (Elt F) ℓ) (c : Dev nD) :
    res_main_v100 m c = refOut (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  unfold res_main_v100 refOut xform propagate rowBias weight dinv wrap srcIdx dstIdx
  rfl

/-- `h · Wᵀ` at entry (p, q): the sum over k of h (p, k) * W (q, k). -/
theorem xform_apply (A : (⟨S100000x64, .f32⟩ : BufTy).Contents (Elt Ideal)) (W : (⟨S64x64, .f32⟩ : BufTy).Contents (Elt Ideal)) (p : Fin 100000) (q : Fin 64) :
    xform (F := Ideal) A W (ix2 p q) = ∑ k : Fin 64, A (ix2 p k) * W (ix2 q k) :=
  (Cert.Rank2.dotGeneral_plain_apply dot_S100000x64_S64x64_S100000x64_1_0_0_1_n_n_wf none A
      (transpose S64x64 [1, 0] W transposes_S64x64_S64x64_1_0) p q).trans
    (Finset.sum_congr rfl fun k _ =>
      congrArg (A (ix2 p k) * ·) (transpose_ix2_apply W transposes_S64x64_S64x64_1_0 k q))

/-- The bias row at entry (p, q) is the bias vector's entry q. -/
theorem rowBias_at (b : (⟨S64, .f32⟩ : BufTy).Contents (Elt Ideal)) (p : Fin 100000) (q : Fin 64) :
    rowBias (F := Ideal) b (ix2 p q) = b (ix1 q) :=
  Cert.Rank2.rowBias_apply b bcast_S64_S1x64_1 bcast_S1x64_S100000x64_0_1 p q

/-- Two transformed matrices, each with its bias row, added: entry (p, q).  Stated for any two matrices `P`, `N`,
    so that nothing about how they were computed is looked at. -/
theorem out_apply (P N : (⟨S100000x64, .f32⟩ : BufTy).Contents (Elt Ideal)) (Wψp Wψn : (⟨S64x64, .f32⟩ : BufTy).Contents (Elt Ideal)) (bψp bψn : (⟨S64, .f32⟩ : BufTy).Contents (Elt Ideal))
    (p : Fin 100000) (q : Fin 64) :
    addf (F := Ideal) (φ := .f32) (addf (F := Ideal) (φ := .f32) (xform (F := Ideal) P Wψp) (rowBias (F := Ideal) bψp))
        (addf (F := Ideal) (φ := .f32) (xform (F := Ideal) N Wψn) (rowBias (F := Ideal) bψn)) (ix2 p q)
      = (∑ k : Fin 64, P (ix2 p k) * Wψp (ix2 q k) + bψp (ix1 q))
        + (∑ k : Fin 64, N (ix2 p k) * Wψn (ix2 q k) + bψn (ix1 q)) := by
  show (xform (F := Ideal) P Wψp (ix2 p q) + rowBias (F := Ideal) bψp (ix2 p q))
      + (xform (F := Ideal) N Wψn (ix2 p q) + rowBias (F := Ideal) bψn (ix2 p q)) = _
  rw [xform_apply, xform_apply, rowBias_at, rowBias_at]

/-- The reference's result at entry (p, q): `out_apply` at the two convolutions. -/
theorem refOut_apply (h : (⟨S100000x64, .f32⟩ : BufTy).Contents (Elt Ideal)) (ep en : (⟨S2x1600000, .i32⟩ : BufTy).Contents (Elt Ideal))
    (Wp : (⟨S64x64, .f32⟩ : BufTy).Contents (Elt Ideal)) (bp : (⟨S64, .f32⟩ : BufTy).Contents (Elt Ideal)) (Wn : (⟨S64x64, .f32⟩ : BufTy).Contents (Elt Ideal)) (bn : (⟨S64, .f32⟩ : BufTy).Contents (Elt Ideal))
    (Wψp : (⟨S64x64, .f32⟩ : BufTy).Contents (Elt Ideal)) (bψp : (⟨S64, .f32⟩ : BufTy).Contents (Elt Ideal)) (Wψn : (⟨S64x64, .f32⟩ : BufTy).Contents (Elt Ideal)) (bψn : (⟨S64, .f32⟩ : BufTy).Contents (Elt Ideal))
    (p : Fin 100000) (q : Fin 64) :
    refOut (F := Ideal) h ep en Wp bp Wn bn Wψp bψp Wψn bψn (ix2 p q)
      = (∑ k : Fin 64, propagate (F := Ideal) (xform h Wp) ep bp (ix2 p k) * Wψp (ix2 q k) + bψp (ix1 q))
        + (∑ k : Fin 64, propagate (F := Ideal) (xform h Wn) en bn (ix2 p k) * Wψn (ix2 q k) + bψn (ix1 q)) :=
  out_apply (propagate (F := Ideal) (xform h Wp) ep bp) (propagate (F := Ideal) (xform h Wn) en bn) Wψp Wψn bψp bψn p q

end Cert.Gcn

end
-- ==== Proof.Spec.lean ====
/-
  The two facts about extended-real sums that join the two programs' final step.

  One program contracts a 128-wide axis made of two 64-wide halves laid side by side and adds the sum of two
  biases; the other contracts each half by itself, adds each half's own bias, and adds the two results.
  A sum over the joined axis is the sum over its first half plus the sum over its second half (`sum_joined`),
  and (S₁ + S₂) + (b₁ + b₂) = (S₁ + b₁) + (S₂ + b₂) (`regroup`).  Both use only that addition of extended reals
  is commutative and associative, so neither needs any entry to be finite.
-/
import Mathlib.Data.EReal.Basic
import Mathlib.Algebra.BigOperators.Fin

namespace Cert.GcnSpec

/-- A sum over 128 positions whose terms on positions 0..63 are `g` and on positions 64..127 are `h`
    is the sum of `g` plus the sum of `h`. -/
theorem sum_joined (f : Fin 128 → EReal) (g h : Fin 64 → EReal)
    (hlo : ∀ k : Fin 64, f ⟨k.val, Nat.lt_of_lt_of_le k.isLt (by decide)⟩ = g k)
    (hhi : ∀ k : Fin 64, f ⟨64 + k.val, by have := k.isLt; omega⟩ = h k) :
    ∑ k : Fin 128, f k = ∑ k : Fin 64, g k + ∑ k : Fin 64, h k :=
  (Fin.sum_univ_add (a := 64) (b := 64) f).trans
    (congrArg₂ (· + ·) (Finset.sum_congr rfl fun k _ => hlo k) (Finset.sum_congr rfl fun k _ => hhi k))

/-- Two sums and two biases, grouped either way. -/
theorem regroup (S₁ S₂ b₁ b₂ : EReal) : (S₁ + S₂) + (b₁ + b₂) = (S₁ + b₁) + (S₂ + b₂) :=
  add_add_add_comm S₁ S₂ b₁ b₂

end Cert.GcnSpec
-- ==== Proof.Bridge.lean ====
/-
  The two programs compute one function.

  (1) Each 64-column half of h · [W₊ᵀ | W₋ᵀ] is h times the transpose of that half's own weight: column j of the
      left half only meets column j of W₊ᵀ, column j of the right half only column j of W₋ᵀ.  So what goes into each
      graph convolution is the same matrix in both programs, and so is what comes out.
  (2) With P and N the two convolutions, entry (p, q) of [P | N] · [Wψ₊ᵀ ; Wψ₋ᵀ] + (bψ₊ + bψ₋) is
          Σ_{k<128} [P | N](p, k) * [Wψ₊ᵀ ; Wψ₋ᵀ](k, q) + (bψ₊ q + bψ₋ q);
      the first 64 terms are P(p, k) * Wψ₊(q, k), the last 64 are N(p, k) * Wψ₋(q, k), so the sum splits into the two
      halves' sums, and regrouping the two sums with the two biases gives the reference's
          (Σ_k P(p, k) * Wψ₊(q, k) + bψ₊ q) + (Σ_k N(p, k) * Wψ₋(q, k) + bψ₋ q).
  Only commutativity and associativity of addition are used: no entry needs to be finite.
-/
import proofs.«113151_j32873679683756_1_alg».proof.Proof.KernelResult
import proofs.«113151_j32873679683756_1_alg».proof.Proof.RefSide
import proofs.«113151_j32873679683756_1_alg».proof.Proof.Spec

noncomputable section

namespace Cert.Bridge

open Cert.KernelIdeal Cert.KernelIdeal.Gen Cert.KernelIdeal.Blocks Cert.KernelIdeal.Result
open Idealize.ShloMosaic Idealize.ShloMosaic.TcCoe Idealize.SL.Sem Idealize.ShloMosaic.ValueIdx

/-- The left 64 columns of h · [W₊ᵀ | W₋ᵀ] are h · W₊ᵀ. -/
theorem firstProduct_lo (h : (⟨S100000x64, .f32⟩ : BufTy).Contents (Elt Ideal)) (Wp Wn : (⟨S64x64, .f32⟩ : BufTy).Contents (Elt Ideal)) :
    extractStridedSlice S100000x64 ![0, 0] (firstProduct h Wp Wn) slices_S100000x128_S100000x64_0_0
      = Cert.Gcn.xform (F := Ideal) h Wp := by
  funext i
  obtain ⟨p, j, rfl⟩ : ∃ (p : Fin 100000) (j : Fin 64), i = ix2 p j := ⟨i 0, i 1, eq_ix2 i⟩
  rw [Cert.Gcn.xform_apply]
  refine (slice2_axis1_apply 0 (firstProduct h Wp Wn) slices_S100000x128_S100000x64_0_0 p j
    (⟨j.val, Nat.lt_of_lt_of_le j.isLt (by decide)⟩ : Fin 128) (Nat.zero_add j.val).symm).trans ?_
  unfold firstProduct
  rw [mm_ix2]
  refine Finset.sum_congr rfl fun k _ => congrArg (h (ix2 p k) * ·) ?_
  refine (Cert.Rank2.concat_cols_left _ _ concatenates_S64x64_S64x64_S64x128_d1 k
    (⟨j.val, Nat.lt_of_lt_of_le j.isLt (by decide)⟩ : Fin 128) j rfl).trans ?_
  exact transpose_ix2_apply Wp transposes_S64x64_S64x64_1_0 k j

/-- The right 64 columns of h · [W₊ᵀ | W₋ᵀ] are h · W₋ᵀ. -/
theorem firstProduct_hi (h : (⟨S100000x64, .f32⟩ : BufTy).Contents (Elt Ideal)) (Wp Wn : (⟨S64x64, .f32⟩ : BufTy).Contents (Elt Ideal)) :
    extractStridedSlice S100000x64 ![0, 64] (firstProduct h Wp Wn) slices_S100000x128_S100000x64_0_64
      = Cert.Gcn.xform (F := Ideal) h Wn := by
  funext i
  obtain ⟨p, j, rfl⟩ : ∃ (p : Fin 100000) (j : Fin 64), i = ix2 p j := ⟨i 0, i 1, eq_ix2 i⟩
  rw [Cert.Gcn.xform_apply]
  refine (slice2_axis1_apply 64 (firstProduct h Wp Wn) slices_S100000x128_S100000x64_0_64 p j
    (⟨64 + j.val, by have := j.isLt; omega⟩ : Fin 128) rfl).trans ?_
  unfold firstProduct
  rw [mm_ix2]
  refine Finset.sum_congr rfl fun k _ => congrArg (h (ix2 p k) * ·) ?_
  refine (Cert.Rank2.concat_cols_right _ _ concatenates_S64x64_S64x64_S64x128_d1 k
    (⟨64 + j.val, by have := j.isLt; omega⟩ : Fin 128) j (Nat.add_comm j.val 64)).trans ?_
  exact transpose_ix2_apply Wn transposes_S64x64_S64x64_1_0 k j

/-- The kernel's final step at entry (p, q), for any two matrices P, N in place of the two convolutions. -/
theorem combine_apply (P N : (⟨S100000x64, .f32⟩ : BufTy).Contents (Elt Ideal)) (Wψp Wψn : (⟨S64x64, .f32⟩ : BufTy).Contents (Elt Ideal)) (bψp bψn : (⟨S64, .f32⟩ : BufTy).Contents (Elt Ideal))
    (p : Fin 100000) (q : Fin 64) :
    mmb (M := 100000) (K := 128) (N := 64)
        (concatenate S100000x128 1 [⟨S100000x64, P⟩, ⟨S100000x64, N⟩] concatenates_S100000x64_S100000x64_S100000x128_d1)
        (concatenate S128x64 0 [⟨S64x64, transpose S64x64 [1, 0] Wψp transposes_S64x64_S64x64_1_0⟩,
          ⟨S64x64, transpose S64x64 [1, 0] Wψn transposes_S64x64_S64x64_1_0⟩] concatenates_S64x64_S64x64_S128x64_d0)
        (shapeCast _ (addf (F := Ideal) (φ := .f32) bψp bψn) shapeCasts_S64_S1x64) (ix2 p q)
      = (∑ k : Fin 64, P (ix2 p k) * Wψp (ix2 q k) + bψp (ix1 q))
        + (∑ k : Fin 64, N (ix2 p k) * Wψn (ix2 q k) + bψn (ix1 q)) := by
  rw [mmb_ix2, Cert.Rank2.biasSumRow_apply]
  refine Eq.trans (congrArg (· + (bψp (ix1 q) + bψn (ix1 q)))
    (Cert.GcnSpec.sum_joined _ (fun k => P (ix2 p k) * Wψp (ix2 q k)) (fun k => N (ix2 p k) * Wψn (ix2 q k))
      (fun k => congrArg₂ (· * ·)
        (Cert.Rank2.concat_cols_left P N concatenates_S100000x64_S100000x64_S100000x128_d1 p _ k rfl)
        ((Cert.Rank2.concat_rows_left _ _ concatenates_S64x64_S64x64_S128x64_d0 _ q k rfl).trans
          (transpose_ix2_apply Wψp transposes_S64x64_S64x64_1_0 k q)))
      (fun k => congrArg₂ (· * ·)
        (Cert.Rank2.concat_cols_right P N concatenates_S100000x64_S100000x64_S100000x128_d1 p _ k (Nat.add_comm k.val 64))
        ((Cert.Rank2.concat_rows_right _ _ concatenates_S64x64_S64x64_S128x64_d0 _ q k (Nat.add_comm k.val 64)).trans
          (transpose_ix2_apply Wψn transposes_S64x64_S64x64_1_0 k q)))))
    (Cert.GcnSpec.regroup _ _ _ _)

/-- The kernel's result function is the reference's. -/
theorem kernelOut_eq_refOut (h : (⟨S100000x64, .f32⟩ : BufTy).Contents (Elt Ideal)) (ep en : (⟨S2x1600000, .i32⟩ : BufTy).Contents (Elt Ideal))
    (Wp : (⟨S64x64, .f32⟩ : BufTy).Contents (Elt Ideal)) (bp : (⟨S64, .f32⟩ : BufTy).Contents (Elt Ideal)) (Wn : (⟨S64x64, .f32⟩ : BufTy).Contents (Elt Ideal)) (bn : (⟨S64, .f32⟩ : BufTy).Contents (Elt Ideal))
    (Wψp : (⟨S64x64, .f32⟩ : BufTy).Contents (Elt Ideal)) (bψp : (⟨S64, .f32⟩ : BufTy).Contents (Elt Ideal)) (Wψn : (⟨S64x64, .f32⟩ : BufTy).Contents (Elt Ideal)) (bψn : (⟨S64, .f32⟩ : BufTy).Contents (Elt Ideal)) :
    kernelOut h ep en Wp bp Wn bn Wψp bψp Wψn bψn = Cert.Gcn.refOut (F := Ideal) h ep en Wp bp Wn bn Wψp bψp Wψn bψn := by
  funext i
  obtain ⟨p, q, rfl⟩ : ∃ (p : Fin 100000) (q : Fin 64), i = ix2 p q := ⟨i 0, i 1, eq_ix2 i⟩
  rw [Cert.Gcn.refOut_apply]
  unfold kernelOut
  rw [firstProduct_lo, firstProduct_hi]
  exact combine_apply _ _ Wψp Wψn bψp bψn p q

end Cert.Bridge

end
-- ==== Proof.lean ====
/-
  Two signed graph convolutions and a combining linear layer: a kernel with two matrix-product regions against a
  plain reference.

  With h the 100 000 x 64 node features, e₊ / e₋ the two edge lists, W± , b± the convolutions' weights and biases and
  Wψ± , bψ± the output layer's, and `propagate x e b` the normalized message passing D^(-1/2) (A + I) D^(-1/2) x + b:

    reference:  (propagate (h W₊ᵀ) e₊ b₊ · Wψ₊ᵀ + bψ₊) + (propagate (h W₋ᵀ) e₋ b₋ · Wψ₋ᵀ + bψ₋)
    kernel:     X = h · [W₊ᵀ | W₋ᵀ]                         (region 0, ten row blocks)
                [propagate X[:, :64] e₊ b₊ | propagate X[:, 64:] e₋ b₋] · [Wψ₊ᵀ ; Wψ₋ᵀ] + (bψ₊ + bψ₋)   (region 1)

  On exact values the two are one function: each half of X is the reference's h W±ᵀ, the message passing is the same
  chain of host operations applied to equal inputs, a contraction over the joined 128 positions is the sum of the two
  64-position contractions, and (S₁ + S₂) + (b₁ + b₂) = (S₁ + b₁) + (S₂ + b₂).  Only commutativity and associativity
  of addition on the extended reals are used, so the precondition (finite inputs) is never opened.

  The three frames: each kernel program's from its two regions' class-A runs over the segments of @main; the
  reference's from its run with the result dropped.  The idealization rewrote no operation, so there is nothing to
  preserve.
-/
import proofs.«113151_j32873679683756_1_alg».proof.Defs
import proofs.«113151_j32873679683756_1_alg».proof.Proof.Gen.Kernel
import proofs.«113151_j32873679683756_1_alg».proof.Proof.Gen.Kernel.Skeleton
import proofs.«113151_j32873679683756_1_alg».proof.Proof.Gen.Kernel.Launch
import proofs.«113151_j32873679683756_1_alg».proof.Proof.Gen.Kernel.Points
import proofs.«113151_j32873679683756_1_alg».proof.Proof.Gen.Kernel.Frame
import proofs.«113151_j32873679683756_1_alg».proof.Proof.Gen.KernelIdeal
import proofs.«113151_j32873679683756_1_alg».proof.Proof.Gen.KernelIdeal.Skeleton
import proofs.«113151_j32873679683756_1_alg».proof.Proof.Gen.KernelIdeal.Launch
import proofs.«113151_j32873679683756_1_alg».proof.Proof.Gen.KernelIdeal.Points
import proofs.«113151_j32873679683756_1_alg».proof.Proof.Gen.KernelIdeal.Frame
import proofs.«113151_j32873679683756_1_alg».proof.Proof.Gen.ReferenceIdeal
import proofs.«113151_j32873679683756_1_alg».proof.Proof.Gen.ReferenceIdeal.Run
import proofs.«113151_j32873679683756_1_alg».proof.Proof.Gen.Pre_finite_inputs
import proofs.«113151_j32873679683756_1_alg».proof.Proof.KernelRun
import proofs.«113151_j32873679683756_1_alg».proof.Proof.KernelResult
import proofs.«113151_j32873679683756_1_alg».proof.Proof.RefSide
import proofs.«113151_j32873679683756_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both runs end with the result array at `kernelOut` of the (agreeing) arguments: the kernel's by reading its last
    boundary's contents back through the segments, the reference's because its result term is `refOut` of the
    arguments, which is the same function. -/
theorem algebraic : Cert.algebraic_KernelIdeal_ReferenceIdeal := by
  intro m ρ m' ρ' _ hagree
  refine ⟨fun c => Cert.KernelIdeal.Result.kernelOut
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.Result.value m ρ c), (h c).2⟩)
      (Cert.KernelIdeal.Named.run m ρ)
  · refine (θ_run Cert.ReferenceIdeal.defs _ _).mono (fun r h c => ⟨(h c).1.trans ?_, (h c).2⟩)
      (Cert.ReferenceIdeal.Value.run (F := Ideal) m' ρ')
    obtain ⟨-, h1, h2, h3, h4, h5, h6, h7, h8, h9, h10, h11⟩ := hagree c
    rw [Cert.Gcn.res_eq, h1, h2, h3, h4, h5, h6, h7, h8, h9, h10, h11]
    exact (Cert.Bridge.kernelOut_eq_refOut _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
